-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S4096x1024 : Shape := ⟨2, ![4096, 1024]⟩
abbrev S4096 : Shape := ⟨1, ![4096]⟩
abbrev S1024x4096 : Shape := ⟨2, ![1024, 4096]⟩
abbrev S1024 : Shape := ⟨1, ![1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S8x4096x1024 .f32) (main_arg1 : FVec F S4096x1024 .f32) (main_arg2 : FVec F S4096 .f32) (main_arg3 : FVec F S1024x4096 .f32) (main_arg4 : FVec F S1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S1024x4096 .f32 := Host.absf main_arg3
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_arg4 main_v13 main_v16
-- ==== Kernel.lean ====
abbrev S8x4096x1024 : Shape := ⟨3, ![8, 4096, 1024]⟩
abbrev S4096x1024 : Shape := ⟨2, ![4096, 1024]⟩
abbrev S4096 : Shape := ⟨1, ![4096]⟩
abbrev S1024x4096 : Shape := ⟨2, ![1024, 4096]⟩
abbrev S1024 : Shape := ⟨1, ![1024]⟩
abbrev S32768x1024 : Shape := ⟨2, ![32768, 1024]⟩
abbrev S1x4096 : Shape := ⟨2, ![1, 4096]⟩
abbrev S1x1024 : Shape := ⟨2, ![1, 1024]⟩
abbrev S512x1024 : Shape := ⟨2, ![512, 1024]⟩
abbrev S512x4096 : Shape := ⟨2, ![512, 4096]⟩

abbrev nBuf : Space → Nat
  | .hbm => 14
  | .vmem => 8
  | .smem => 0
  | _ => 0

abbrev bufTy : (tb : Table) → Fin (tcTables nBuf tb) → BufTy
  | .hbm, ⟨0, _⟩ => ⟨S8x4096x1024, .f32⟩
  | .hbm, ⟨1, _⟩ => ⟨S4096x1024, .f32⟩
  | .hbm, ⟨2, _⟩ => ⟨S4096, .f32⟩
  | .hbm, ⟨3, _⟩ => ⟨S1024x4096, .f32⟩
  | .hbm, ⟨4, _⟩ => ⟨S1024, .f32⟩
  | .hbm, ⟨5, _⟩ => ⟨S32768x1024, .f32⟩
  | .hbm, ⟨6, _⟩ => ⟨S1024x4096, .f32⟩
  | .hbm, ⟨7, _⟩ => ⟨S1024x4096, .bf16⟩
  | .hbm, ⟨8, _⟩ => ⟨S4096x1024, .f32⟩
  | .hbm, ⟨9, _⟩ => ⟨S4096x1024, .bf16⟩
  | .hbm, ⟨10, _⟩ => ⟨S1x4096, .f32⟩
  | .hbm, ⟨11, _⟩ => ⟨S1x1024, .f32⟩
  | .hbm, ⟨12, _⟩ => ⟨S32768x1024, .f32⟩
  | .hbm, ⟨13, _⟩ => ⟨S8x4096x1024, .f32⟩
  | .local _ .vmem, ⟨0, _⟩ => ⟨S512x1024, .f32⟩
  | .local _ .vmem, ⟨1, _⟩ => ⟨S512x1024, .f32⟩
  | .local _ .vmem, ⟨2, _⟩ => ⟨S1024x4096, .bf16⟩
  | .local _ .vmem, ⟨3, _⟩ => ⟨S1x4096, .f32⟩
  | .local _ .vmem, ⟨4, _⟩ => ⟨S4096x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S8x4096x1024_S32768x1024 : S8x4096x1024.ShapeCasts S32768x1024
  transposes_S4096x1024_S1024x4096_1_0 : S4096x1024.Transposes [1, 0] S1024x4096
  bitsLt_bf16_f32 : FTy.bits .bf16 < FTy.bits .f32
  transposes_S1024x4096_S4096x1024_1_0 : S1024x4096.Transposes [1, 0] S4096x1024
  shapeCasts_S4096_S1x4096 : S4096.ShapeCasts S1x4096
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S32768x1024_S8x4096x1024 : S32768x1024.ShapeCasts S8x4096x1024
  dot_S512x1024_S1024x4096_S512x4096_1_0_0_1_n_n_wf : DotDims.WF S512x1024 S1024x4096 S512x4096 [1] [0] [0] [1] [] []
  dot_S512x4096_S4096x1024_S512x1024_1_0_0_1_n_n_wf : DotDims.WF S512x4096 S4096x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S32768x1024.size a
  hwx0_0 : ∀ i : grid0.Coords, EltTy.bits .f32 = 32 ∨ (Rect.block (s := S32768x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .bf16 = 32 ∨ (Rect.block (s := S1024x4096) S1024x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S32768x1024.size a
  hwx0_5 : ∀ i : grid0.Coords, EltTy.bits .f32 = 32 ∨ (Rect.block (s := S32768x1024) S512x1024.size (cc0_transform_5 i) (hinb0_5 i)).WholeWords (EltTy.packing .f32)

variable [Facts₀]

def dot_S512x1024_S1024x4096_S512x4096_1_0_0_1_n_n : DotDims S512x1024 S1024x4096 S512x4096 where
  lhsContracting := [1]
  rhsContracting := [0]
  lhsNonContracting := [0]
  rhsNonContracting := [1]
  lhsBatch := []
  rhsBatch := []
  wf := dot_S512x1024_S1024x4096_S512x4096_1_0_0_1_n_n_wf
def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S4096x1024 : Shape := ⟨2, ![4096, 1024]⟩
abbrev S4096 : Shape := ⟨1, ![4096]⟩
abbrev S1024x4096 : Shape := ⟨2, ![1024, 4096]⟩
abbrev S1024 : Shape := ⟨1, ![1024]⟩
abbrev S8x4096x4096 : Shape := ⟨3, ![8, 4096, 4096]⟩
abbrev S1x1x4096 : Shape := ⟨3, ![1, 1, 4096]⟩
abbrev S_ : Shape := ⟨0, ![]⟩
abbrev S1x1x1024 : Shape := ⟨3, ![1, 1, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S4096x1024, .f32⟩
  | .hbm, ⟨2, _⟩ => ⟨S4096, .f32⟩
  | .hbm, ⟨3, _⟩ => ⟨S1024x4096, .f32⟩
  | .hbm, ⟨4, _⟩ => ⟨S1024, .f32⟩
  | .hbm, ⟨5, _⟩ => ⟨S8x4096x4096, .f32⟩
  | .hbm, ⟨6, _⟩ => ⟨S1x1x4096, .f32⟩
  | .hbm, ⟨7, _⟩ => ⟨S8x4096x4096, .f32⟩
  | .hbm, ⟨8, _⟩ => ⟨S8x4096x4096, .f32⟩
  | .hbm, ⟨9, _⟩ => ⟨S_, .f32⟩
  | .hbm, ⟨10, _⟩ => ⟨S8x4096x4096, .f32⟩
  | .hbm, ⟨11, _⟩ => ⟨S8x4096x4096, .f32⟩
  | .hbm, ⟨12, _⟩ => ⟨S8x4096x1024, .f32⟩
  | .hbm, ⟨13, _⟩ => ⟨S1x1x1024, .f32⟩
  | .hbm, ⟨14, _⟩ => ⟨S8x4096x1024, .f32⟩
  | .hbm, ⟨15, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S8x4096x4096_0_1_2 : S1x1x4096.BroadcastsInDim S8x4096x4096 (![0, 1, 2] : Fin 3 → Fin S8x4096x4096.rank)
  bcast_S_S8x4096x4096 : S_.BroadcastsInDim S8x4096x4096 (![] : Fin 0 → Fin S8x4096x4096.rank)
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  dot_S8x4096x1024_S4096x1024_S8x4096x4096_2_1_01_0_n_n_wf : DotDims.WF S8x4096x1024 S4096x1024 S8x4096x4096 [2] [1] [0, 1] [0] [] []
  dot_S8x4096x4096_S1024x4096_S8x4096x1024_2_1_01_0_n_n_wf : DotDims.WF S8x4096x4096 S1024x4096 S8x4096x1024 [2] [1] [0, 1] [0] [] []

variable [Facts₀]

def dot_S8x4096x1024_S4096x1024_S8x4096x4096_2_1_01_0_n_n : DotDims S8x4096x1024 S4096x1024 S8x4096x4096 where
  lhsContracting := [2]
  rhsContracting := [1]
  lhsNonContracting := [0, 1]
  rhsNonContracting := [0]
  lhsBatch := []
  rhsBatch := []
  wf := dot_S8x4096x1024_S4096x1024_S8x4096x4096_2_1_01_0_n_n_wf
def dot_S8x4096x4096_S1024x4096_S8x4096x1024_2_1_01_0_n_n : DotDims S8x4096x4096 S1024x4096 S8x4096x1024 where
  lhsContracting := [2]
  rhsContracting := [1]
  lhsNonContracting := [0, 1]
  rhsNonContracting := [0]
  lhsBatch := []
  rhsBatch := []
  wf := dot_S8x4096x4096_S1024x4096_S8x4096x1024_2_1_01_0_n_n_wf

class Facts : Prop extends Facts₀ where

variable [Facts]
-- ==== Proof.TwoLayer.lean ====
/-
  Two dense layers with a rectifier between them, one row at a time, at the extended reals.

  A row of K numbers is multiplied into H hidden units (weight table A, one bias per unit), every hidden unit
  is replaced by its maximum with the value of the zero word, and the H hidden units are multiplied into O
  output units (weight table B, one bias per unit).  Everything is written over plain coordinates, so that a
  program's arrays of whatever layout are plugged in by saying which entry each coordinate reads.
-/
import Idealize.ShloMosaic.PureOps.Ideal
import Idealize.ShloMosaic.Lib.ValueIdx

noncomputable section

open scoped BigOperators

namespace Cert.TwoLayer

open Idealize.ShloMosaic Idealize.ShloMosaic.ValueIdx

/-- The extended real that the all-zero 32-bit float word denotes (the rectifier's threshold). -/
abbrev zeroWord : EReal := Ideal.ofBits .f32 0x00000000#32

/-- Hidden unit h of a row: the rectified sum over f of row(f) · A(f, h), plus the unit's bias. -/
def hid {K H : Nat} (row : Fin K → EReal) (A : Fin K → Fin H → EReal) (u : Fin H → EReal) (h : Fin H) : EReal :=
  max (∑ f : Fin K, row f * A f h + u h) zeroWord

/-- Output unit o of a row: the sum over h of hidden(h) · B(h, o), plus the unit's bias. -/
def out {K H O : Nat} (row : Fin K → EReal) (A : Fin K → Fin H → EReal) (u : Fin H → EReal)
    (B : Fin H → Fin O → EReal) (v : Fin O → EReal) (o : Fin O) : EReal :=
  ∑ h : Fin H, hid row A u h * B h o + v o

/-- The result as an array over [8, 4096, 1024]: entry (b, n, o) is output unit o of row (b, n) of x, the first
    layer's weights stored as W1(h, f), the second layer's as W2(o, h). -/
def result (x : (⟨3, ![8, 4096, 1024]⟩ : Shape).Idx → EReal) (W1 : (⟨2, ![4096, 1024]⟩ : Shape).Idx → EReal)
    (b1 : (⟨1, ![4096]⟩ : Shape).Idx → EReal) (W2 : (⟨2, ![1024, 4096]⟩ : Shape).Idx → EReal)
    (b2 : (⟨1, ![1024]⟩ : Shape).Idx → EReal) : (⟨3, ![8, 4096, 1024]⟩ : Shape).Idx → EReal := fun i =>
  out (fun f : Fin 1024 => x (ix3 (⟨(i 0).val, (i 0).isLt⟩ : Fin 8) (⟨(i 1).val, (i 1).isLt⟩ : Fin 4096) f))
    (fun (f : Fin 1024) (h : Fin 4096) => W1 (ix2 h f)) (fun h : Fin 4096 => b1 (ix1 h))
    (fun (h : Fin 4096) (o : Fin 1024) => W2 (ix2 o h)) (fun o : Fin 1024 => b2 (ix1 o))
    (⟨(i 2).val, (i 2).isLt⟩ : Fin 1024)

/-- The same rows laid out as a matrix of 32768 rows, the weights already transposed to (in × hid) and
    (hid × out) tables and the biases as one-row matrices: entry (r, o) is output unit o of row r. -/
def rows (X : (⟨2, ![32768, 1024]⟩ : Shape).Idx → EReal) (A : (⟨2, ![1024, 4096]⟩ : Shape).Idx → EReal)
    (u : (⟨2, ![1, 4096]⟩ : Shape).Idx → EReal) (B : (⟨2, ![4096, 1024]⟩ : Shape).Idx → EReal)
    (v : (⟨2, ![1, 1024]⟩ : Shape).Idx → EReal) : (⟨2, ![32768, 1024]⟩ : Shape).Idx → EReal := fun j =>
  out (fun f : Fin 1024 => X (ix2 (⟨(j 0).val, (j 0).isLt⟩ : Fin 32768) f))
    (fun (f : Fin 1024) (h : Fin 4096) => A (ix2 f h)) (fun h : Fin 4096 => u (ix2 (0 : Fin 1) h))
    (fun (h : Fin 4096) (o : Fin 1024) => B (ix2 h o)) (fun o : Fin 1024 => v (ix2 (0 : Fin 1) o))
    (⟨(j 1).val, (j 1).isLt⟩ : Fin 1024)

end Cert.TwoLayer

end
-- ==== Proof.RefIsTwoLayer.lean ====
/-
  The reference computes the two layers row by row.

  Its first contraction pairs axis 2 of x with axis 1 of W1, so hidden unit h of row (b, n) is the sum over f of
  x(b, n, f) · W1(h, f), plus b1(h) (the bias broadcast along the two leading axes), rectified against the zero
  word; its second contraction pairs the hidden axis with axis 1 of W2, so output unit o is the sum over h of
  hidden(h) · W2(o, h), plus b2(o).  That is the row function of the specification with the weight tables read
  transposed.
-/
import proofs.«157789_j9663676416892_2_alg».proof.Proof.Gen.ReferenceIdeal.Read
import proofs.«157789_j9663676416892_2_alg».proof.Proof.TwoLayer

noncomputable section

open scoped BigOperators

namespace Cert.RefTwoLayer

open Idealize.ShloMosaic Idealize.ShloMosaic.ValueIdx Cert.ReferenceIdeal Cert.ReferenceIdeal.Read Cert.TwoLayer

/-- The reference's result at (b, n, o) is output unit o of row (b, n). -/
theorem ref_apply (x0 : (⟨S8x4096x1024, .f32⟩ : BufTy).Contents (Elt Ideal)) (x1 : (⟨S4096x1024, .f32⟩ : BufTy).Contents (Elt Ideal))
    (x2 : (⟨S4096, .f32⟩ : BufTy).Contents (Elt Ideal)) (x3 : (⟨S1024x4096, .f32⟩ : BufTy).Contents (Elt Ideal))
    (x4 : (⟨S1024, .f32⟩ : BufTy).Contents (Elt Ideal)) (b : Fin 8) (n : Fin 4096) (o : Fin 1024) :
    val_main_v8 (F := Ideal) x0 x1 x2 x3 x4 (ix3 b n o)
      = out (fun f : Fin 1024 => x0 (ix3 b n f)) (fun (f : Fin 1024) (h : Fin 4096) => x1 (ix2 h f)) (fun h : Fin 4096 => x2 (ix1 h))
          (fun (h : Fin 4096) (o : Fin 1024) => x3 (ix2 o h)) (fun o : Fin 1024 => x4 (ix1 o)) o := by
  have e5l : ∀ k : Fin 4096, lidx_main_v5 (ix3 b n o) k = ix3 b n k := fun k => funext fun a => Fin.ext (by
    match a with | ⟨0, _⟩ => rfl | ⟨1, _⟩ => rfl | ⟨2, _⟩ => rfl)
  have e5r : ∀ k : Fin 4096, ridx_main_v5 (ix3 b n o) k = ix2 o k := fun k => funext fun a => Fin.ext (by
    match a with | ⟨0, _⟩ => rfl | ⟨1, _⟩ => rfl)
  have e0l : ∀ (k : Fin 4096) (f : Fin 1024), lidx_main_v0 (ix3 b n k) f = ix3 b n f := fun k f => funext fun a => Fin.ext (by
    match a with | ⟨0, _⟩ => rfl | ⟨1, _⟩ => rfl | ⟨2, _⟩ => rfl)
  have e0r : ∀ (k : Fin 4096) (f : Fin 1024), ridx_main_v0 (ix3 b n k) f = ix2 k f := fun k f => funext fun a => Fin.ext (by
    match a with | ⟨0, _⟩ => rfl | ⟨1, _⟩ => rfl)
  have e21 : ∀ k : Fin 4096, idx_main_v1 (idx_main_v2 (ix3 b n k)) = ix1 k := fun k => funext fun a => Fin.ext (by
    match a with | ⟨0, _⟩ => rfl)
  have e76 : idx_main_v6 (idx_main_v7 (ix3 b n o)) = ix1 o := funext fun a => Fin.ext (by
    match a with | ⟨0, _⟩ => rfl)
  simp only [val_main_v8_apply, val_main_v5_apply, val_main_v7_apply, val_main_v6_apply, val_main_v4_apply, val_main_v3_apply,
    val_main_v0_apply, val_main_v2_apply, val_main_v1_apply, val_main_call0_v0_apply, val_main_call0_cst_apply,
    e5l, e5r, e0l, e0r, e21, e76]
  rfl

/-- The reference's result array is the specification's. -/
theorem ref_eq (x0 : (⟨S8x4096x1024, .f32⟩ : BufTy).Contents (Elt Ideal)) (x1 : (⟨S4096x1024, .f32⟩ : BufTy).Contents (Elt Ideal))
    (x2 : (⟨S4096, .f32⟩ : BufTy).Contents (Elt Ideal)) (x3 : (⟨S1024x4096, .f32⟩ : BufTy).Contents (Elt Ideal))
    (x4 : (⟨S1024, .f32⟩ : BufTy).Contents (Elt Ideal)) :
    val_main_v8 (F := Ideal) x0 x1 x2 x3 x4 = result x0 x1 x2 x3 x4 := by
  funext i
  obtain ⟨b, n, o, rfl⟩ : ∃ (b : Fin 8) (n : Fin 4096) (o : Fin 1024), i = ix3 b n o := ⟨i 0, i 1, i 2, eq_ix3 i⟩
  exact ref_apply x0 x1 x2 x3 x4 b n o

end Cert.RefTwoLayer

end
-- ==== Proof.LibOneAxisDot.lean ====
/-
  A matrix product that contracts ONE axis, read at one output index, at the extended reals.

  Whatever the dimension numbers are (which axis of each operand is contracted, in which order the free axes
  appear in the result), once the contraction has a single axis of extent K the product's entry at an output
  index j is a sum over k < K of a left entry times a right entry: the left operand read at the index the
  dimension numbers assign to (j, k), the right operand likewise. The two families of operand indices are
  parameters here; each concrete product supplies them (for x · wᵀ they are (r, k) and (c, k), for x · w they
  are (r, k) and (k, c)). No finiteness is asked of any entry: only the index set of the sum is renamed.
-/
import Idealize.ShloMosaic.PureOps.Ideal.Laws
import Idealize.ShloMosaic.Lib.ValueIdx

noncomputable section

open scoped BigOperators

namespace Cert.Lib.OneAxisDot

open Idealize.ShloMosaic Idealize.ShloMosaic.ValueIdx

/-- The contraction's sum, indexed by the dimension numbers' own one-axis contraction index, is the sum over
    k < K of l(li k) · r(ri k), when li k and ri k are the operand indices at the k-th contraction index. -/
theorem contraction_sum_at {sl sr so : Shape} (d : DotDims sl sr so) (K : Nat) (hr : d.contr.rank = 1)
    (hs : d.contr.size ⟨0, by omega⟩ = K) (l : sl.Idx → EReal) (r : sr.Idx → EReal) (j : so.Idx)
    (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    ∑ q : d.contr.Idx, l (d.lhsIdx j q) * r (d.rhsIdx j q) = ∑ k : Fin K, l (li k) * r (ri k) := by
  rw [← Equiv.sum_comp (contrEquiv1 d K hr hs).symm]
  exact Finset.sum_congr rfl fun k _ => by rw [hl k, hrr k]

/-- A matrix unit's product accumulated into the zero matrix, at output index j: the zero adds nothing, and the
    rest is the contraction's sum. -/
theorem matmul_zero_apply_at {sl sr so : Shape} {φ₁ φ₂ : FTy} (d : DotDims sl sr so) (K : Nat) (hr : d.contr.rank = 1)
    (hs : d.contr.size ⟨0, by omega⟩ = K) (prec : Option ContractPrecision)
    (l : FVec Ideal sl φ₁) (r : FVec Ideal sr φ₂) (j : so.Idx)
    (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    matmul d prec l r (constant so .f32 0x00000000#32) j = ∑ k : Fin K, l (li k) * r (ri k) :=
  (Ideal.matmul_constant_zero_apply d prec l r j).trans (contraction_sum_at d K hr hs l r j li ri hl hrr)

/-- The host's dot_general at output index j: the same sum, with no accumulator. -/
theorem dotGeneral_apply_at {sl sr so : Shape} {φ₁ φ₂ : FTy} (d : DotDims sl sr so) (K : Nat) (hr : d.contr.rank = 1)
    (hs : d.contr.size ⟨0, by omega⟩ = K) (prec : Option ContractPrecision)
    (l : FVec Ideal sl φ₁) (r : FVec Ideal sr φ₂) (j : so.Idx)
    (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    Host.dotGeneral d prec l r j = ∑ k : Fin K, l (li k) * r (ri k) :=
  (Ideal.dotGeneral_apply d prec .single l r j).trans (contraction_sum_at d K hr hs l r j li ri hl hrr)

end Cert.Lib.OneAxisDot

end
-- ==== Proof.BodyValue.lean ====
/-
  What the kernel's body stores, entry by entry.

  The body loads a block of 512 rows, the two weight tables (already (in × hid) and (hid × out)) and the two
  bias rows, and stores one value: the first product into a zero accumulator plus the first bias row broadcast
  over the 512 rows, its maximum with the zero word, the second product into a zero accumulator, plus the
  second bias row.  The narrowing casts are the identity on extended reals and the reshapes are between equal
  shapes, so entry (r, c) of the stored value is output unit c of the block's row r.
-/
import proofs.«157789_j9663676416892_2_alg».proof.Proof.Gen.KernelIdeal.Skeleton
import proofs.«157789_j9663676416892_2_alg».proof.Proof.TwoLayer
import proofs.«157789_j9663676416892_2_alg».proof.Proof.LibOneAxisDot
import Idealize.ShloMosaic.Lib.Pipeline.Value

noncomputable section

open scoped BigOperators

namespace Cert.KernelBody

open Idealize.ShloMosaic Idealize.ShloMosaic.ValueIdx Cert.KernelIdeal Cert.KernelIdeal.Gen Cert.TwoLayer Cert.Lib.OneAxisDot

/-! ## The first product's dimension numbers: (rows × in) · (in × hid) -/

theorem d1_lhs0 (i : S512x4096.Idx) (q : dot_S512x1024_S1024x4096_S512x4096_1_0_0_1_n_n.contr.Idx) : (dot_S512x1024_S1024x4096_S512x4096_1_0_0_1_n_n.lhsIdx i q 0).val = (i 0).val := by
  unfold DotDims.lhsIdx
  rw [dif_neg (show ¬(0 : Fin S512x1024.rank) ∈ dot_S512x1024_S1024x4096_S512x4096_1_0_0_1_n_n.lhsBatch by decide), dif_pos (show (0 : Fin S512x1024.rank) ∈ dot_S512x1024_S1024x4096_S512x4096_1_0_0_1_n_n.lhsNonContracting by decide)]
  rfl
theorem d1_lhs1 (i : S512x4096.Idx) (q : dot_S512x1024_S1024x4096_S512x4096_1_0_0_1_n_n.contr.Idx) : (dot_S512x1024_S1024x4096_S512x4096_1_0_0_1_n_n.lhsIdx i q 1).val = (q ⟨0, by decide⟩).val :=
  dot_S512x1024_S1024x4096_S512x4096_1_0_0_1_n_n.lhsIdx_val_of_single rfl i q
theorem d1_rhs0 (i : S512x4096.Idx) (q : dot_S512x1024_S1024x4096_S512x4096_1_0_0_1_n_n.contr.Idx) : (dot_S512x1024_S1024x4096_S512x4096_1_0_0_1_n_n.rhsIdx i q 0).val = (q ⟨0, by decide⟩).val :=
  dot_S512x1024_S1024x4096_S512x4096_1_0_0_1_n_n.rhsIdx_val_of_single rfl i q
theorem d1_rhs1 (i : S512x4096.Idx) (q : dot_S512x1024_S1024x4096_S512x4096_1_0_0_1_n_n.contr.Idx) : (dot_S512x1024_S1024x4096_S512x4096_1_0_0_1_n_n.rhsIdx i q 1).val = (i 1).val := by
  unfold DotDims.rhsIdx
  rw [dif_neg (show ¬(1 : Fin S1024x4096.rank) ∈ dot_S512x1024_S1024x4096_S512x4096_1_0_0_1_n_n.rhsBatch by decide), dif_pos (show (1 : Fin S1024x4096.rank) ∈ dot_S512x1024_S1024x4096_S512x4096_1_0_0_1_n_n.rhsNonContracting by decide)]
  rfl

/-- Entry (r, h) of the first product into zero: the sum over f of l(r, f) · w(f, h). -/
theorem matmul1_apply {φ₁ φ₂ : FTy} (l : FVec Ideal S512x1024 φ₁) (w : FVec Ideal S1024x4096 φ₂) (r : Fin 512) (h : Fin 4096) :
    matmul dot_S512x1024_S1024x4096_S512x4096_1_0_0_1_n_n none l w (constant S512x4096 .f32 0x00000000#32) (ix2 r h) = ∑ f : Fin 1024, l (ix2 r f) * w (ix2 f h) :=
  matmul_zero_apply_at dot_S512x1024_S1024x4096_S512x4096_1_0_0_1_n_n 1024 rfl rfl none l w (ix2 r h) (fun f => ix2 r f) (fun f => ix2 f h)
    (fun k => funext fun a => Fin.ext (by
      have hk := contrEquiv1_symm_val dot_S512x1024_S1024x4096_S512x4096_1_0_0_1_n_n 1024 rfl rfl k
      match a with
      | ⟨0, _⟩ => exact d1_lhs0 _ _
      | ⟨1, _⟩ => exact (d1_lhs1 _ _).trans hk))
    (fun k => funext fun a => Fin.ext (by
      have hk := contrEquiv1_symm_val dot_S512x1024_S1024x4096_S512x4096_1_0_0_1_n_n 1024 rfl rfl k
      match a with
      | ⟨0, _⟩ => exact (d1_rhs0 _ _).trans hk
      | ⟨1, _⟩ => exact d1_rhs1 _ _))

/-! ## The second product's dimension numbers: (rows × hid) · (hid × out) -/

theorem d2_lhs0 (i : S512x1024.Idx) (q : dot_S512x4096_S4096x1024_S512x1024_1_0_0_1_n_n.contr.Idx) : (dot_S512x4096_S4096x1024_S512x1024_1_0_0_1_n_n.lhsIdx i q 0).val = (i 0).val := by
  unfold DotDims.lhsIdx
  rw [dif_neg (show ¬(0 : Fin S512x4096.rank) ∈ dot_S512x4096_S4096x1024_S512x1024_1_0_0_1_n_n.lhsBatch by decide), dif_pos (show (0 : Fin S512x4096.rank) ∈ dot_S512x4096_S4096x1024_S512x1024_1_0_0_1_n_n.lhsNonContracting by decide)]
  rfl
theorem d2_lhs1 (i : S512x1024.Idx) (q : dot_S512x4096_S4096x1024_S512x1024_1_0_0_1_n_n.contr.Idx) : (dot_S512x4096_S4096x1024_S512x1024_1_0_0_1_n_n.lhsIdx i q 1).val = (q ⟨0, by decide⟩).val :=
  dot_S512x4096_S4096x1024_S512x1024_1_0_0_1_n_n.lhsIdx_val_of_single rfl i q
theorem d2_rhs0 (i : S512x1024.Idx) (q : dot_S512x4096_S4096x1024_S512x1024_1_0_0_1_n_n.contr.Idx) : (dot_S512x4096_S4096x1024_S512x1024_1_0_0_1_n_n.rhsIdx i q 0).val = (q ⟨0, by decide⟩).val :=
  dot_S512x4096_S4096x1024_S512x1024_1_0_0_1_n_n.rhsIdx_val_of_single rfl i q
theorem d2_rhs1 (i : S512x1024.Idx) (q : dot_S512x4096_S4096x1024_S512x1024_1_0_0_1_n_n.contr.Idx) : (dot_S512x4096_S4096x1024_S512x1024_1_0_0_1_n_n.rhsIdx i q 1).val = (i 1).val := by
  unfold DotDims.rhsIdx
  rw [dif_neg (show ¬(1 : Fin S4096x1024.rank) ∈ dot_S512x4096_S4096x1024_S512x1024_1_0_0_1_n_n.rhsBatch by decide), dif_pos (show (1 : Fin S4096x1024.rank) ∈ dot_S512x4096_S4096x1024_S512x1024_1_0_0_1_n_n.rhsNonContracting by decide)]
  rfl

/-- Entry (r, c) of the second product into zero: the sum over h of l(r, h) · w(h, c). -/
theorem matmul2_apply {φ₁ φ₂ : FTy} (l : FVec Ideal S512x4096 φ₁) (w : FVec Ideal S4096x1024 φ₂) (r : Fin 512) (c : Fin 1024) :
    matmul dot_S512x4096_S4096x1024_S512x1024_1_0_0_1_n_n none l w (constant S512x1024 .f32 0x00000000#32) (ix2 r c) = ∑ h : Fin 4096, l (ix2 r h) * w (ix2 h c) :=
  matmul_zero_apply_at dot_S512x4096_S4096x1024_S512x1024_1_0_0_1_n_n 4096 rfl rfl none l w (ix2 r c) (fun h => ix2 r h) (fun h => ix2 h c)
    (fun k => funext fun a => Fin.ext (by
      have hk := contrEquiv1_symm_val dot_S512x4096_S4096x1024_S512x1024_1_0_0_1_n_n 4096 rfl rfl k
      match a with
      | ⟨0, _⟩ => exact d2_lhs0 _ _
      | ⟨1, _⟩ => exact (d2_lhs1 _ _).trans hk))
    (fun k => funext fun a => Fin.ext (by
      have hk := contrEquiv1_symm_val dot_S512x4096_S4096x1024_S512x1024_1_0_0_1_n_n 4096 rfl rfl k
      match a with
      | ⟨0, _⟩ => exact (d2_rhs0 _ _).trans hk
      | ⟨1, _⟩ => exact d2_rhs1 _ _))

/-! ## A bias row broadcast over the block's rows -/

/-- A one-row matrix broadcast to 512 rows reads the row's entry in every row (4096 columns). -/
theorem bias1_apply (u : S1x4096.Idx → EReal) (r : Fin 512) (h : Fin 4096) :
    broadcastTo S512x4096 u broadcasts_S1x4096_S512x4096 (ix2 r h) = u (ix2 (0 : Fin 1) h) :=
  broadcastTo_apply u broadcasts_S1x4096_S512x4096 (ix2 r h) (ix2 (0 : Fin 1) h) (fun a => by
    match a with
    | ⟨0, _⟩ => exact (if_pos rfl).symm
    | ⟨1, _⟩ => show h.val = if (4096 : Nat) = 1 then 0 else h.val; rw [if_neg (by decide)])

/-- A one-row matrix broadcast to 512 rows reads the row's entry in every row (1024 columns). -/
theorem bias2_apply (v : S1x1024.Idx → EReal) (r : Fin 512) (c : Fin 1024) :
    broadcastTo S512x1024 v broadcasts_S1x1024_S512x1024 (ix2 r c) = v (ix2 (0 : Fin 1) c) :=
  broadcastTo_apply v broadcasts_S1x1024_S512x1024 (ix2 r c) (ix2 (0 : Fin 1) c) (fun a => by
    match a with
    | ⟨0, _⟩ => exact (if_pos rfl).symm
    | ⟨1, _⟩ => show c.val = if (1024 : Nat) = 1 then 0 else c.val; rw [if_neg (by decide)])

/-! ## The stored value -/

/-- Entry (r, c) of what the body stores is output unit c of the loaded block's row r. -/
theorem pay_apply (x0 : Vec Ideal S512x1024 .f32) (x1 : Vec Ideal S1024x4096 .bf16) (x2 : Vec Ideal S1x4096 .f32)
    (x3 : Vec Ideal S4096x1024 .bf16) (x4 : Vec Ideal S1x1024 .f32) (r : Fin 512) (c : Fin 1024) :
    k0_pay1 (F := Ideal) x0 x1 x2 x3 x4 (ix2 r c)
      = out (fun f : Fin 1024 => x0 (ix2 r f)) (fun (f : Fin 1024) (h : Fin 4096) => x1 (ix2 f h)) (fun h : Fin 4096 => x2 (ix2 (0 : Fin 1) h))
          (fun (h : Fin 4096) (o : Fin 1024) => x3 (ix2 h o)) (fun o : Fin 1024 => x4 (ix2 (0 : Fin 1) o)) c := by
  unfold k0_pay1
  rw [shapeCast_self, shapeCast_self, shapeCast_self, shapeCast_self, shapeCast_self]
  refine (addf_apply _ _ _).trans ?_
  unfold out
  refine congrArg₂ (· + ·) ((matmul2_apply (φ₁ := .bf16) (φ₂ := .bf16) _ _ r c).trans (Finset.sum_congr rfl fun h _ => congrArg (· * x3 (ix2 h c)) ?_)) (bias2_apply x4 r c)
  unfold hid
  refine (maximumf_apply _ _ _).trans (congrArg (fun z => max z zeroWord) ?_)
  refine (addf_apply _ _ _).trans (congrArg₂ (· + ·) (matmul1_apply (φ₁ := .bf16) (φ₂ := .bf16) _ _ r h) (bias1_apply x2 r h))

end Cert.KernelBody

end
-- ==== Proof.LibRowMajor.lean ====
/-
  Arrays read through their row-major positions.

  An array over a shape is "represented" by a function f on the natural numbers when its entry at every index is f
  at the index's row-major position.  A reshape keeps the row-major position of every entry, so it keeps the
  representing function; two arrays of one shape with one representing function are equal.  For ranks one to four
  the position of an index built from coordinates is spelt as the usual nested sum of products.
-/
import Idealize.ShloMosaic.PureOps.Ideal.Laws
import Idealize.ShloMosaic.Lib.ValueIdx
import Idealize.ShloMosaic.Lib.Pipeline.Value

noncomputable section

open scoped BigOperators

namespace Cert.Lib.RowMajor

open Idealize.ShloMosaic Idealize.ShloMosaic.ValueIdx

variable {α : Type}

/-- The array `A` at an index is `f` at the index's row-major position. -/
def Rep {S : Shape} (A : S.Idx → α) (f : ℕ → α) : Prop := ∀ i : S.Idx, A i = f (S.rowMajor i).val

/-- The entries of an array listed by row-major position (zero past the last one). -/
def flatOf {S : Shape} (A : S.Idx → EReal) (n : ℕ) : EReal :=
  if h : n < S.numel then A (S.rowMajor.symm ⟨n, h⟩) else 0

theorem rep_flatOf {S : Shape} (A : S.Idx → EReal) : Rep A (flatOf A) := fun i => by
  unfold flatOf
  rw [dif_pos (S.rowMajor i).isLt]
  exact congrArg A ((S.rowMajor.symm_apply_apply i).symm.trans (congrArg S.rowMajor.symm (Fin.ext rfl)))

theorem rep_ext {S : Shape} {A B : S.Idx → α} {f : ℕ → α} (hA : Rep A f) (hB : Rep B f) : A = B :=
  funext fun i => (hA i).trans (hB i).symm

/-- A reshape keeps every entry's row-major position. -/
theorem rep_shapeCast {S T : Shape} {A : S.Idx → α} {f : ℕ → α} (hA : Rep A f) (h : S.ShapeCasts T) :
    Rep (shapeCast T A h) f := fun j => by
  unfold Idealize.ShloMosaic.shapeCast
  rw [hA (Shape.reshapeEquiv h j), Shape.rowMajor_reshapeEquiv h j]

theorem rowMajor_ix1 {a : ℕ} (r : Fin a) : ((⟨1, ![a]⟩ : Shape).rowMajor (ix1 r)).val = r.val := by
  rw [Shape.rowMajor_val_one]; rfl

theorem rowMajor_ix2 {a b : ℕ} (r : Fin a) (c : Fin b) :
    ((⟨2, ![a, b]⟩ : Shape).rowMajor (ix2 r c)).val = r.val * b + c.val := by
  rw [Shape.rowMajor_val_two]; rfl

theorem rowMajor_ix3 {a b c : ℕ} (x : Fin a) (y : Fin b) (z : Fin c) :
    ((⟨3, ![a, b, c]⟩ : Shape).rowMajor (ix3 x y z)).val = (x.val * b + y.val) * c + z.val := by
  rw [Shape.rowMajor_val_three]; rfl

theorem rowMajor_ix4 {a b c d : ℕ} (x : Fin a) (y : Fin b) (z : Fin c) (w : Fin d) :
    ((⟨4, ![a, b, c, d]⟩ : Shape).rowMajor (ix4 x y z w)).val = ((x.val * b + y.val) * c + z.val) * d + w.val := by
  rw [Shape.rowMajor_val_four]; rfl

theorem rep1_iff {a : ℕ} {A : (⟨1, ![a]⟩ : Shape).Idx → α} {f : ℕ → α} :
    Rep A f ↔ ∀ r : Fin a, A (ix1 r) = f r.val :=
  ⟨fun h r => (h (ix1 r)).trans (congrArg f (rowMajor_ix1 r)),
   fun h i => by
    obtain ⟨r, rfl⟩ : ∃ r : Fin a, i = ix1 r := ⟨i 0, eq_ix1 i⟩
    exact (h r).trans (congrArg f (rowMajor_ix1 r).symm)⟩

theorem rep2_iff {a b : ℕ} {A : (⟨2, ![a, b]⟩ : Shape).Idx → α} {f : ℕ → α} :
    Rep A f ↔ ∀ (r : Fin a) (c : Fin b), A (ix2 r c) = f (r.val * b + c.val) :=
  ⟨fun h r c => (h (ix2 r c)).trans (congrArg f (rowMajor_ix2 r c)),
   fun h i => by
    obtain ⟨r, c, rfl⟩ : ∃ (r : Fin a) (c : Fin b), i = ix2 r c := ⟨i 0, i 1, eq_ix2 i⟩
    exact (h r c).trans (congrArg f (rowMajor_ix2 r c).symm)⟩

theorem rep3_iff {a b c : ℕ} {A : (⟨3, ![a, b, c]⟩ : Shape).Idx → α} {f : ℕ → α} :
    Rep A f ↔ ∀ (x : Fin a) (y : Fin b) (z : Fin c), A (ix3 x y z) = f ((x.val * b + y.val) * c + z.val) :=
  ⟨fun h x y z => (h (ix3 x y z)).trans (congrArg f (rowMajor_ix3 x y z)),
   fun h i => by
    obtain ⟨x, y, z, rfl⟩ : ∃ (x : Fin a) (y : Fin b) (z : Fin c), i = ix3 x y z := ⟨i 0, i 1, i 2, eq_ix3 i⟩
    exact (h x y z).trans (congrArg f (rowMajor_ix3 x y z).symm)⟩

theorem rep4_iff {a b c d : ℕ} {A : (⟨4, ![a, b, c, d]⟩ : Shape).Idx → α} {f : ℕ → α} :
    Rep A f ↔ ∀ (x : Fin a) (y : Fin b) (z : Fin c) (w : Fin d),
      A (ix4 x y z w) = f (((x.val * b + y.val) * c + z.val) * d + w.val) :=
  ⟨fun h x y z w => (h (ix4 x y z w)).trans (congrArg f (rowMajor_ix4 x y z w)),
   fun h i => by
    obtain ⟨x, y, z, w, rfl⟩ : ∃ (x : Fin a) (y : Fin b) (z : Fin c) (w : Fin d), i = ix4 x y z w :=
      ⟨i 0, i 1, i 2, i 3, eq_ix4 i⟩
    exact (h x y z w).trans (congrArg f (rowMajor_ix4 x y z w).symm)⟩

end Cert.Lib.RowMajor

end
-- ==== Proof.Layout.lean ====
/-
  The kernel's program lays the rows out as a 32768 × 1024 matrix and the weights as transposed tables.

  Row b·4096 + n of the reshaped input is row (b, n) of x (a reshape keeps every entry's row-major position);
  entry (f, h) of the transposed first weight table is W1(h, f), entry (h, o) of the transposed second one is
  W2(o, h) (the narrowing cast after each transpose is the identity on extended reals); a bias reshaped to one
  row reads b(h) at column h.  So the matrix of row results, reshaped back to [8, 4096, 1024], is the
  specification's result array.
-/
import Idealize.ShloMosaic.Lib.Pipeline.Value
import proofs.«157789_j9663676416892_2_alg».proof.Proof.TwoLayer
import proofs.«157789_j9663676416892_2_alg».proof.Proof.LibRowMajor

noncomputable section

open scoped BigOperators

namespace Cert.Layout

open Idealize.ShloMosaic Idealize.ShloMosaic.ValueIdx Cert.TwoLayer Cert.Lib.RowMajor

/-- The row results of the reshaped and transposed operands, reshaped back, are the specification's result. -/
theorem rows_reshaped
    (x : (⟨3, ![8, 4096, 1024]⟩ : Shape).Idx → EReal) (W1 : (⟨2, ![4096, 1024]⟩ : Shape).Idx → EReal)
    (b1 : (⟨1, ![4096]⟩ : Shape).Idx → EReal) (W2 : (⟨2, ![1024, 4096]⟩ : Shape).Idx → EReal)
    (b2 : (⟨1, ![1024]⟩ : Shape).Idx → EReal)
    (hx : (⟨3, ![8, 4096, 1024]⟩ : Shape).ShapeCasts ⟨2, ![32768, 1024]⟩)
    (hy : (⟨2, ![32768, 1024]⟩ : Shape).ShapeCasts ⟨3, ![8, 4096, 1024]⟩)
    (h1 : (⟨2, ![4096, 1024]⟩ : Shape).Transposes [1, 0] ⟨2, ![1024, 4096]⟩)
    (h2 : (⟨2, ![1024, 4096]⟩ : Shape).Transposes [1, 0] ⟨2, ![4096, 1024]⟩)
    (hb1 : (⟨1, ![4096]⟩ : Shape).ShapeCasts ⟨2, ![1, 4096]⟩) (hb2 : (⟨1, ![1024]⟩ : Shape).ShapeCasts ⟨2, ![1, 1024]⟩)
    (ht : FTy.bf16.bits < FTy.f32.bits) :
    shapeCast ⟨3, ![8, 4096, 1024]⟩
        (rows (shapeCast ⟨2, ![32768, 1024]⟩ x hx)
          (truncf (F := Ideal) (φ := .f32) .bf16 (transpose ⟨2, ![1024, 4096]⟩ [1, 0] W1 h1) ht)
          (shapeCast ⟨2, ![1, 4096]⟩ b1 hb1)
          (truncf (F := Ideal) (φ := .f32) .bf16 (transpose ⟨2, ![4096, 1024]⟩ [1, 0] W2 h2) ht)
          (shapeCast ⟨2, ![1, 1024]⟩ b2 hb2)) hy
      = result x W1 b1 W2 b2 := by
  funext i
  obtain ⟨b, n, o, rfl⟩ : ∃ (b : Fin 8) (n : Fin 4096) (o : Fin 1024), i = ix3 b n o := ⟨i 0, i 1, i 2, eq_ix3 i⟩
  have hm : b.val * 4096 + n.val < 32768 := by have := b.isLt; have := n.isLt; omega
  rw [shapeCast_apply _ hy (ix3 b n o) (ix2 (⟨b.val * 4096 + n.val, hm⟩ : Fin 32768) o) (by rw [rowMajor_ix2, rowMajor_ix3])]
  have hrow : ∀ f : Fin 1024, shapeCast ⟨2, ![32768, 1024]⟩ x hx (ix2 (⟨b.val * 4096 + n.val, hm⟩ : Fin 32768) f) = x (ix3 b n f) :=
    fun f => shapeCast_apply x hx _ _ (by rw [rowMajor_ix3, rowMajor_ix2])
  have hA : ∀ (f : Fin 1024) (h : Fin 4096),
      truncf (F := Ideal) (φ := .f32) .bf16 (transpose ⟨2, ![1024, 4096]⟩ [1, 0] W1 h1) ht (ix2 f h) = W1 (ix2 h f) :=
    fun f h => transpose_apply [1, 0] W1 h1 (ix2 f h) (ix2 h f) (fun a => by
      match a with
      | ⟨0, _⟩ => rfl
      | ⟨1, _⟩ => rfl)
  have hB : ∀ (h : Fin 4096) (o : Fin 1024),
      truncf (F := Ideal) (φ := .f32) .bf16 (transpose ⟨2, ![4096, 1024]⟩ [1, 0] W2 h2) ht (ix2 h o) = W2 (ix2 o h) :=
    fun h o => transpose_apply [1, 0] W2 h2 (ix2 h o) (ix2 o h) (fun a => by
      match a with
      | ⟨0, _⟩ => rfl
      | ⟨1, _⟩ => rfl)
  have hu : ∀ h : Fin 4096, shapeCast ⟨2, ![1, 4096]⟩ b1 hb1 (ix2 (0 : Fin 1) h) = b1 (ix1 h) :=
    fun h => shapeCast_apply b1 hb1 _ _ (by rw [rowMajor_ix1, rowMajor_ix2]; simp)
  have hv : ∀ o : Fin 1024, shapeCast ⟨2, ![1, 1024]⟩ b2 hb2 (ix2 (0 : Fin 1) o) = b2 (ix1 o) :=
    fun o => shapeCast_apply b2 hb2 _ _ (by rw [rowMajor_ix1, rowMajor_ix2]; simp)
  show out (fun f : Fin 1024 => shapeCast ⟨2, ![32768, 1024]⟩ x hx (ix2 (⟨b.val * 4096 + n.val, hm⟩ : Fin 32768) f))
      (fun (f : Fin 1024) (h : Fin 4096) => truncf (F := Ideal) (φ := .f32) .bf16 (transpose ⟨2, ![1024, 4096]⟩ [1, 0] W1 h1) ht (ix2 f h))
      (fun h : Fin 4096 => shapeCast ⟨2, ![1, 4096]⟩ b1 hb1 (ix2 (0 : Fin 1) h))
      (fun (h : Fin 4096) (o : Fin 1024) => truncf (F := Ideal) (φ := .f32) .bf16 (transpose ⟨2, ![4096, 1024]⟩ [1, 0] W2 h2) ht (ix2 h o))
      (fun o : Fin 1024 => shapeCast ⟨2, ![1, 1024]⟩ b2 hb2 (ix2 (0 : Fin 1) o)) o
    = out (fun f : Fin 1024 => x (ix3 b n f)) (fun (f : Fin 1024) (h : Fin 4096) => W1 (ix2 h f)) (fun h : Fin 4096 => b1 (ix1 h))
      (fun (h : Fin 4096) (o : Fin 1024) => W2 (ix2 o h)) (fun o : Fin 1024 => b2 (ix1 o)) o
  simp only [hrow, hA, hB, hu, hv]

end Cert.Layout

end
-- ==== Proof.KernelValue.lean ====
/-
  What the kernel's program leaves in its result, as one function of its arguments.

  The region runs over 64 grid points.  At point t the body sees rows 512·t … 512·t + 511 of the reshaped
  input and the whole of the two weight tables and the two bias rows (their block index is (0, 0) at every
  point), and what it stores is written back as rows 512·t … 512·t + 511 of the region's result.  By the body's
  value, entry (r, c) of that block is output unit c of row 512·t + r; the 64 blocks tile the 32768 rows, so the
  region's result is the matrix of row results.  The operations before the region reshape x, transpose and
  narrow the weights and reshape the biases; the one after it reshapes the matrix back to [8, 4096, 1024].
-/
import proofs.«157789_j9663676416892_2_alg».proof.Proof.Gen.KernelIdeal.Frame
import proofs.«157789_j9663676416892_2_alg».proof.Proof.BodyValue
import proofs.«157789_j9663676416892_2_alg».proof.Proof.Layout
import Idealize.ShloMosaic.Lib.Pipeline.Value
import Idealize.ShloMosaic.Lib.StableHlo.Run
import Idealize.ShloMosaic.PureOps.Ideal.Laws

noncomputable section

open scoped BigOperators

namespace Cert.KernelValue

open Cert.KernelIdeal Cert.KernelIdeal.Gen Idealize.ShloMosaic Idealize.ShloMosaic.TcCoe Idealize.SL.Sem
open Idealize.ShloMosaic.StableHlo Idealize.ShloMosaic.ValueIdx Cert.TwoLayer
open Idealize.ShloMosaic.Pipeline (Dat)

variable (m : (ℓ : Loc nD τ sig) → Buf (Elt Ideal) ℓ) (ρ : Dev nD → PrngReg)

/-! ## The arrays the region finds -/

theorem V_v0 (c : Dev nD) : (V m c main_v0 : S32768x1024.Idx → EReal)
    = shapeCast S32768x1024 (m ((c : Thread nD τ).loc main_arg0)) shapeCasts_S8x4096x1024_S32768x1024 := by
  show StableHlo.after hostOps0 (fun b => m (c, b)) (Proc.devRef .tc main_v0) = _
  after_results <;> rfl

theorem V_v2 (c : Dev nD) : (V m c main_v2 : S1024x4096.Idx → EReal)
    = truncf (F := Ideal) (φ := .f32) .bf16 (transpose S1024x4096 [1, 0] (m ((c : Thread nD τ).loc main_arg1)) transposes_S4096x1024_S1024x4096_1_0) bitsLt_bf16_f32 := by
  show StableHlo.after hostOps0 (fun b => m (c, b)) (Proc.devRef .tc main_v2) = _
  after_results <;> rfl

theorem V_v4 (c : Dev nD) : (V m c main_v4 : S4096x1024.Idx → EReal)
    = truncf (F := Ideal) (φ := .f32) .bf16 (transpose S4096x1024 [1, 0] (m ((c : Thread nD τ).loc main_arg3)) transposes_S1024x4096_S4096x1024_1_0) bitsLt_bf16_f32 := by
  show StableHlo.after hostOps0 (fun b => m (c, b)) (Proc.devRef .tc main_v4) = _
  after_results <;> rfl

theorem V_v5 (c : Dev nD) : (V m c main_v5 : S1x4096.Idx → EReal)
    = shapeCast S1x4096 (m ((c : Thread nD τ).loc main_arg2)) shapeCasts_S4096_S1x4096 := by
  show StableHlo.after hostOps0 (fun b => m (c, b)) (Proc.devRef .tc main_v5) = _
  after_results <;> rfl

theorem V_v6 (c : Dev nD) : (V m c main_v6 : S1x1024.Idx → EReal)
    = shapeCast S1x1024 (m ((c : Thread nD τ).loc main_arg4)) shapeCasts_S1024_S1x1024 := by
  show StableHlo.after hostOps0 (fun b => m (c, b)) (Proc.devRef .tc main_v6) = _
  after_results <;> rfl

/-! ## The blocks at a grid point -/

theorem zero_offsets : (![0, 0] : Fin 2 → Nat) = fun _ => 0 := funext fun a => by fin_cases a <;> rfl

/-- The block indices over the grid: the input rows and the result move with the point, everything else stays. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row r of the input block at point t is row 512·t + r of the reshaped input. -/
theorem blk0 (c : Dev nD) (t : Fin cfg0.N) (r : Fin 512) (f : Fin 1024) (hr : t.val * 512 + r.val < 32768) :
    iblk m c 0 t (ix2 r f) = V m c main_v0 (ix2 (⟨t.val * 512 + r.val, hr⟩ : Fin 32768) f) := by
  obtain ⟨e0, e1, -⟩ := idx_facts t
  show V m c main_v0 (((cfg0.win 0).blk t).view.emb (ix2 r f)) = _
  have h : ((cfg0.win 0).blk t).view.emb (ix2 r f) = ix2 (⟨t.val * 512 + r.val, hr⟩ : Fin 32768) f := by
    funext a; apply Fin.ext
    match a with
    | ⟨0, _⟩ => show win0_0.index t (0 : Fin 2) * 512 + 1 * r.val = t.val * 512 + r.val; omega
    | ⟨1, _⟩ => show win0_0.index t (1 : Fin 2) * 1024 + 1 * f.val = f.val; omega
  rw [h]

/-- The first weight table's block is the whole table at every point. -/
theorem blk1 (c : Dev nD) (t : Fin cfg0.N) (f : Fin 1024) (h : Fin 4096) :
    iblk m c 1 t (ix2 f h) = V m c main_v2 (ix2 f h) := by
  obtain ⟨-, -, e0, e1, -⟩ := idx_facts t
  show V m c main_v2 (((cfg0.win 1).blk t).view.emb (ix2 f h)) = _
  have hh : ((cfg0.win 1).blk t).view.emb (ix2 f h) = ix2 f h := by
    funext a; apply Fin.ext
    match a with
    | ⟨0, _⟩ => show win0_1.index t (0 : Fin 2) * 1024 + 1 * f.val = f.val; omega
    | ⟨1, _⟩ => show win0_1.index t (1 : Fin 2) * 4096 + 1 * h.val = h.val; omega
  rw [hh]

/-- The first bias row's block is the whole row at every point. -/
theorem blk2 (c : Dev nD) (t : Fin cfg0.N) (h : Fin 4096) :
    iblk m c 2 t (ix2 (0 : Fin 1) h) = V m c main_v5 (ix2 (0 : Fin 1) h) := by
  obtain ⟨-, -, -, -, e0, e1, -⟩ := idx_facts t
  show V m c main_v5 (((cfg0.win 2).blk t).view.emb (ix2 (0 : Fin 1) h)) = _
  have hh : ((cfg0.win 2).blk t).view.emb (ix2 (0 : Fin 1) h) = ix2 (0 : Fin 1) h := by
    funext a; apply Fin.ext
    match a with
    | ⟨0, _⟩ => show win0_2.index t (0 : Fin 2) * 1 + 1 * 0 = 0; omega
    | ⟨1, _⟩ => show win0_2.index t (1 : Fin 2) * 4096 + 1 * h.val = h.val; omega
  rw [hh]

/-- The second weight table's block is the whole table at every point. -/
theorem blk3 (c : Dev nD) (t : Fin cfg0.N) (h : Fin 4096) (o : Fin 1024) :
    iblk m c 3 t (ix2 h o) = V m c main_v4 (ix2 h o) := by
  obtain ⟨-, -, -, -, -, -, e0, e1, -⟩ := idx_facts t
  show V m c main_v4 (((cfg0.win 3).blk t).view.emb (ix2 h o)) = _
  have hh : ((cfg0.win 3).blk t).view.emb (ix2 h o) = ix2 h o := by
    funext a; apply Fin.ext
    match a with
    | ⟨0, _⟩ => show win0_3.index t (0 : Fin 2) * 4096 + 1 * h.val = h.val; omega
    | ⟨1, _⟩ => show win0_3.index t (1 : Fin 2) * 1024 + 1 * o.val = o.val; omega
  rw [hh]

/-- The second bias row's block is the whole row at every point. -/
theorem blk4 (c : Dev nD) (t : Fin cfg0.N) (o : Fin 1024) :
    iblk m c 4 t (ix2 (0 : Fin 1) o) = V m c main_v6 (ix2 (0 : Fin 1) o) := by
  obtain ⟨-, -, -, -, -, -, -, -, e0, e1, -⟩ := idx_facts t
  show V m c main_v6 (((cfg0.win 4).blk t).view.emb (ix2 (0 : Fin 1) o)) = _
  have hh : ((cfg0.win 4).blk t).view.emb (ix2 (0 : Fin 1) o) = ix2 (0 : Fin 1) o := by
    funext a; apply Fin.ext
    match a with
    | ⟨0, _⟩ => show win0_4.index t (0 : Fin 2) * 1 + 1 * 0 = 0; omega
    | ⟨1, _⟩ => show win0_4.index t (1 : Fin 2) * 1024 + 1 * o.val = o.val; omega
  rw [hh]

/-! ## One stored entry is one entry of the matrix of row results -/

/-- If the loaded block holds the rows of X from row `off` on and the other loads hold the tables and bias rows,
    the stored value at an index is the matrix of row results at the index `off` rows further down. -/
theorem block_entry (X : S32768x1024.Idx → EReal) (A : S1024x4096.Idx → EReal) (u : S1x4096.Idx → EReal)
    (B : S4096x1024.Idx → EReal) (v : S1x1024.Idx → EReal)
    (x0 : Vec Ideal S512x1024 .f32) (x1 : Vec Ideal S1024x4096 .bf16) (x2 : Vec Ideal S1x4096 .f32)
    (x3 : Vec Ideal S4096x1024 .bf16) (x4 : Vec Ideal S1x1024 .f32) (off : Nat)
    (h0 : ∀ (r : Fin 512) (f : Fin 1024) (hr : off + r.val < 32768), x0 (ix2 r f) = X (ix2 (⟨off + r.val, hr⟩ : Fin 32768) f))
    (h1 : ∀ (f : Fin 1024) (h : Fin 4096), x1 (ix2 f h) = A (ix2 f h))
    (h2 : ∀ h : Fin 4096, x2 (ix2 (0 : Fin 1) h) = u (ix2 (0 : Fin 1) h))
    (h3 : ∀ (h : Fin 4096) (o : Fin 1024), x3 (ix2 h o) = B (ix2 h o))
    (h4 : ∀ o : Fin 1024, x4 (ix2 (0 : Fin 1) o) = v (ix2 (0 : Fin 1) o))
    (j : S512x1024.Idx) (i : S32768x1024.Idx) (hi0 : (i 0).val = off + (j 0).val) (hi1 : (i 1).val = (j 1).val) :
    k0_pay1 (F := Ideal) x0 x1 x2 x3 x4 j = rows X A u B v i := by
  obtain ⟨r, cc, rfl⟩ : ∃ (r : Fin 512) (cc : Fin 1024), j = ix2 r cc := ⟨j 0, j 1, eq_ix2 j⟩
  have hi0' : (i 0).val = off + r.val := hi0
  have hi1' : (i 1).val = cc.val := hi1
  have hlt : off + r.val < 32768 := by have := idx2_lt0 i; omega
  rw [Cert.KernelBody.pay_apply]
  have hrow : (fun f : Fin 1024 => x0 (ix2 r f)) = fun f : Fin 1024 => X (ix2 (⟨(i 0).val, (i 0).isLt⟩ : Fin 32768) f) :=
    funext fun f => (h0 r f hlt).trans (congrArg (fun q : Fin 32768 => X (ix2 q f)) (Fin.ext hi0'.symm))
  have hA : (fun (f : Fin 1024) (h : Fin 4096) => x1 (ix2 f h)) = fun (f : Fin 1024) (h : Fin 4096) => A (ix2 f h) :=
    funext fun f => funext fun h => h1 f h
  have hu : (fun h : Fin 4096 => x2 (ix2 (0 : Fin 1) h)) = fun h : Fin 4096 => u (ix2 (0 : Fin 1) h) := funext h2
  have hB : (fun (h : Fin 4096) (o : Fin 1024) => x3 (ix2 h o)) = fun (h : Fin 4096) (o : Fin 1024) => B (ix2 h o) :=
    funext fun h => funext fun o => h3 h o
  have hv : (fun o : Fin 1024 => x4 (ix2 (0 : Fin 1) o)) = fun o : Fin 1024 => v (ix2 (0 : Fin 1) o) := funext h4
  have hc : cc = (⟨(i 1).val, (i 1).isLt⟩ : Fin 1024) := Fin.ext hi1'.symm
  rw [hrow, hA, hu, hB, hv, hc]
  rfl

/-! ## What a point writes back, and the region's result -/

/-- What point t writes back is block t of the matrix of row results. -/
theorem flushed_eq (c : Dev nD) (t : Fin cfg0.N) :
    (dats m 0 c).flushed 5 t = ((cfg0.win 5).blk t).view.read (Elt Ideal)
      (rows (V m c main_v0) (V m c main_v2) (V m c main_v5) (V m c main_v4) (V m c main_v6)) := by
  show (cfg0.win 5).cut (grid0.coords t) ((dats m 0 c).after 5 t) = _
  rw [after0_5]
  unfold out0_5
  rw [View.canon_unit_zero zero_offsets]
  simp only [View.ld_unit_zero (S := S512x1024) zero_offsets, View.ld_unit_zero (S := S1024x4096) zero_offsets,
    View.ld_unit_zero (S := S1x4096) zero_offsets, View.ld_unit_zero (S := S4096x1024) zero_offsets,
    View.ld_unit_zero (S := S1x1024) zero_offsets]
  obtain ⟨-, -, -, -, -, -, -, -, -, -, e0, e1⟩ := idx_facts t
  funext j
  show k0_pay1 (F := Ideal) (iblk m c 0 t) (iblk m c 1 t) (iblk m c 2 t) (iblk m c 3 t) (iblk m c 4 t) j
    = rows (V m c main_v0) (V m c main_v2) (V m c main_v5) (V m c main_v4) (V m c main_v6) (((cfg0.win 5).blk t).view.emb j)
  refine block_entry (V m c main_v0) (V m c main_v2) (V m c main_v5) (V m c main_v4) (V m c main_v6)
    (iblk m c 0 t) (iblk m c 1 t) (iblk m c 2 t) (iblk m c 3 t) (iblk m c 4 t) (t.val * 512)
    (fun r f hr => blk0 m c t r f hr) (blk1 m c t) (blk2 m c t) (blk3 m c t) (blk4 m c t) j _ ?_ ?_
  · show win0_5.index t (0 : Fin 2) * 512 + 1 * (j 0).val = t.val * 512 + (j 0).val
    omega
  · show win0_5.index t (1 : Fin 2) * 1024 + 1 * (j 1).val = (j 1).val
    omega

/-- An index of the region's result is in point t's block iff each coordinate is in the block's range. -/
theorem mem_blk (t : Fin cfg0.N) (i : S32768x1024.Idx) :
    i ∈ ((cfg0.win 5).blk t).view.set ↔ ∀ a : Fin 2, win0_5.index t a * S512x1024.size a ≤ (i a).val
      ∧ (i a).val < win0_5.index t a * S512x1024.size a + S512x1024.size a := by
  show i ∈ ((View.whole main_v7).slice (win0_5.rect t)).set ↔ _
  rw [View.set_slice_whole, Rect.mem_set_unit]
  exact Iff.rfl

/-- Row r of the region's result is written at point r / 512. -/
theorem covered (i : S32768x1024.Idx) :
    ∃ t : Fin cfg0.N, (cfg0.win 5).flush t = true ∧ i ∈ ((cfg0.win 5).blk t).view.set := by
  have hi0 : (i 0).val < 32768 := idx2_lt0 i
  have hi1 : (i 1).val < 1024 := idx2_lt1 i
  have hq : (i 0).val / 512 < cfg0.N := by show (i 0).val / 512 < grid0.N; rw [N_0]; omega
  refine ⟨⟨(i 0).val / 512, hq⟩, flush0_5 _, ?_⟩
  obtain ⟨-, -, -, -, -, -, -, -, -, -, e0, e1⟩ := idx_facts ⟨(i 0).val / 512, hq⟩
  have e0' : win0_5.index ⟨(i 0).val / 512, hq⟩ (0 : Fin 2) = (i 0).val / 512 := e0
  rw [mem_blk]
  intro a
  match a with
  | ⟨0, _⟩ =>
    show win0_5.index ⟨(i 0).val / 512, hq⟩ (0 : Fin 2) * 512 ≤ (i 0).val ∧ (i 0).val < win0_5.index ⟨(i 0).val / 512, hq⟩ (0 : Fin 2) * 512 + 512
    omega
  | ⟨1, _⟩ =>
    show win0_5.index ⟨(i 0).val / 512, hq⟩ (1 : Fin 2) * 1024 ≤ (i 1).val ∧ (i 1).val < win0_5.index ⟨(i 0).val / 512, hq⟩ (1 : Fin 2) * 1024 + 1024
    omega

/-- The region's result after the run is the matrix of row results. -/
theorem region_result (c : Dev nD) : (dats m 0 c).arrAt 5 cfg0.N
    = rows (V m c main_v0) (V m c main_v2) (V m c main_v5) (V m c main_v4) (V m c main_v6) :=
  (dats m 0 c).arrAt_eq_of_cover 5 _ (fun t _ => flushed_eq m c t) covered

/-! ## The operation after the region, and the run -/

/-- The program's result: the region's result reshaped to [8, 4096, 1024] is the specification's result array
    of the arguments. -/
theorem tail_eq (c : Dev nD) :
    (Pipeline.afterTail₀ cfgs (dats m) 0 (V0 m) [hostOps1] c main_v8 : S8x4096x1024.Idx → EReal)
      = result (m ((c : Thread nD τ).loc main_arg0)) (m ((c : Thread nD τ).loc main_arg1)) (m ((c : Thread nD τ).loc main_arg2))
          (m ((c : Thread nD τ).loc main_arg3)) (m ((c : Thread nD τ).loc main_arg4)) := by
  have hreg : Pipeline.withArrays spec0 c (V0 m c) (fun w => (dats m 0 c).arrAt w cfg0.N) (Proc.devRef .tc (Pipeline.arrRef spec0 5))
      = rows (V m c main_v0) (V m c main_v2) (V m c main_v5) (V m c main_v4) (V m c main_v6) :=
    (Pipeline.withArrays_arr spec0 launch0.win.arr_inj c _ _ 5).trans (region_result m c)
  unfold Pipeline.afterTail₀
  show StableHlo.after hostOps1 _ (Proc.devRef .tc main_v8) = _
  after_results
  show shapeCast S8x4096x1024 (Pipeline.withArrays spec0 c (V0 m c) (fun w => (dats m 0 c).arrAt w cfg0.N)
      (Proc.devRef .tc (Pipeline.arrRef spec0 5))) shapeCasts_S32768x1024_S8x4096x1024 = _
  rw [hreg, V_v0, V_v2, V_v5, V_v4, V_v6]
  exact Cert.Layout.rows_reshaped _ _ _ _ _ _ _ _ _ _ _ _

/-- Every weakly fair execution of the kernel's program terminates with the result at the specification's
    result array of the arguments and the arguments unchanged. -/
theorem run : θ_run defs (onTc (τ := τ) (main (F := Ideal))) ⟨m, fun _ => 0, ρ⟩ fun r => ∀ c : Dev nD,
      r.2.mem ((c.tc : Thread nD τ).loc main_v8)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v8 (Pipeline.mem_restRefs_of main_v8 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelValue

end
-- ==== Proof.lean ====
/-
  The kernel is a two-layer perceptron applied to 32768 rows: out = max(x · W1ᵀ + b1, 0) · W2ᵀ + b2.

  The reference contracts x with W1 and the rectified hidden layer with W2 directly over the [8, 4096, ·]
  arrays (Proof/RefIsTwoLayer.lean).  The kernel's program reshapes x to a 32768 × 1024 matrix, transposes and
  narrows the weights, runs a 64-point grid whose point t computes rows 512·t … 512·t + 511 with two matrix-unit
  products into zero accumulators (Proof/BodyValue.lean), and reshapes the result back (Proof/KernelValue.lean,
  Proof/Layout.lean).  At the extended reals the narrowing casts are the identity and each product is a plain
  sum of products, so both programs compute, for row (b, n) and output unit o,
      Σ_h max(Σ_f x(b, n, f) · W1(h, f) + b1(h), 0) · W2(o, h) + b2(o)
  (Proof/TwoLayer.lean): the same sums of the same products, term by term, so no finiteness of the inputs is
  used.  No operation of the kernel was rewritten for its idealization: the idealized kernel is the kernel's own
  text read at the extended reals, and the conjunct about the rewrites is `True`.
-/
import proofs.«157789_j9663676416892_2_alg».proof.Defs
import proofs.«157789_j9663676416892_2_alg».proof.Proof.Gen.Kernel
import proofs.«157789_j9663676416892_2_alg».proof.Proof.Gen.Kernel.Skeleton
import proofs.«157789_j9663676416892_2_alg».proof.Proof.Gen.Kernel.Launch
import proofs.«157789_j9663676416892_2_alg».proof.Proof.Gen.Kernel.Points
import proofs.«157789_j9663676416892_2_alg».proof.Proof.Gen.Kernel.Frame
import proofs.«157789_j9663676416892_2_alg».proof.Proof.Gen.KernelIdeal
import proofs.«157789_j9663676416892_2_alg».proof.Proof.Gen.KernelIdeal.Skeleton
import proofs.«157789_j9663676416892_2_alg».proof.Proof.Gen.KernelIdeal.Launch
import proofs.«157789_j9663676416892_2_alg».proof.Proof.Gen.KernelIdeal.Points
import proofs.«157789_j9663676416892_2_alg».proof.Proof.Gen.KernelIdeal.Frame
import proofs.«157789_j9663676416892_2_alg».proof.Proof.Gen.ReferenceIdeal
import proofs.«157789_j9663676416892_2_alg».proof.Proof.Gen.Pre_finite_inputs
import proofs.«157789_j9663676416892_2_alg».proof.Proof.Gen.ReferenceIdeal.Run
import proofs.«157789_j9663676416892_2_alg».proof.Proof.Gen.ReferenceIdeal.Read
import proofs.«157789_j9663676416892_2_alg».proof.Proof.RefIsTwoLayer
import proofs.«157789_j9663676416892_2_alg».proof.Proof.KernelValue
import Idealize.ShloMosaic.Adequacy
import Idealize.ShloMosaic.Init

noncomputable section

namespace Cert.Proof

open Idealize.ShloMosaic Idealize.SL.Sem

/-- The word-level kernel terminates without a fault and leaves its arguments as they were. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference terminates with its arguments unchanged: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for its idealization: the conjunct is `True`. -/
theorem preserves : Cert.preserves_Kernel_KernelIdeal := trivial

/-- From memories that agree on the arguments both programs end with the two-layer result of those arguments. -/
theorem algebraic : Cert.algebraic_KernelIdeal_ReferenceIdeal := by
  intro m ρ m' ρ' _ hagree
  refine ⟨fun c => Cert.TwoLayer.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v8_eq, Cert.RefTwoLayer.ref_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
